-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedFrame.lean ====
/-
  A frame run for a pipelined kernel whose input windows may read ONE array through several windows.

  The library's frame run asks every window's array to be a buffer of its own, held at the full share. When two
  input windows stage blocks of the same array, the array's full share has to be dealt among them: the proof data's
  shares `q` say how, and `hsplit` shows that the buffers behind the arrays, each whole at the entry contents, make
  the proof data's arrays at entry. Everything else is as in the plain frame run: the body obligation at every
  point, an invariant that the core's scoped buffers outside the pipeline yield before the first point and yield
  back after the last, nothing owed. The conclusion is the plain frame post: every window's array ends at what the
  proof data compute for it (an input at its entry contents), every buffer that bypasses the region unchanged.
  The kernel has no semaphore of its own and does not draw from the generator.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a kernel whose input windows may share arrays: from any memory with zero counters every weakly
    fair execution of @main terminates without a fault, every window's array ending at the proof data's
    `arrAt … N` and every unscoped buffer that is no window's array at its region-entry contents. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, HR⟩; iexact HR).trans (hin c))
    (hout := fun c => (hout c).trans (by
      iintro HR
      isplitr; · iempintro
      iexact HR))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.KFrame.lean ====
/-
  The frame of the graph-convolution kernel: it runs to the end, faults nowhere and leaves its three argument
  arrays as they were; and, for the value claim, what its result array holds afterwards.

  The kernel walks 25 grid points. At point t it is handed, in VMEM: rows [400 t, 400 t + 200) and rows
  [400 t + 200, 400 t + 400) of the adjacency matrix as TWO windows on the one array; the whole feature matrix
  and the whole weight matrix (fetched once, at the first point); and a 400 x 128 output block, written back as
  rows [400 t, 400 t + 400) of the result. The body stores (A_lo X) W into the block's first 200 rows and
  (A_hi X) W into its last 200: two stores that tile the block, so the block after the body is a function of the
  four input blocks alone (`outBlk`).

  The two adjacency windows read one buffer; its full share is dealt between them, the left half to the first
  and the right half to the second (`hsplit`). Nothing writes an input array, so each ends at its entry contents.
-/
import proofs.«114285_g52158082843307_cont_9to1_m_725_9_alg».proof.Proof.Gen.Kernel.Launch
import proofs.«114285_g52158082843307_cont_9to1_m_725_9_alg».proof.Proof.Gen.Kernel.Skeleton
import proofs.«114285_g52158082843307_cont_9to1_m_725_9_alg».proof.Proof.Gen.Kernel.Points
import proofs.«114285_g52158082843307_cont_9to1_m_725_9_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers as the region finds them: as launched, @main being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rectangles the body loads and stores through: each input block whole, the output block's two halves. -/
abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rLo : Rect S400x128 := Rect.unit (s := S400x128) ![0, 0] S200x128.size inb_S400x128_S200x128_0_0
abbrev rHi : Rect S400x128 := Rect.unit (s := S400x128) ![200, 0] S200x128.size inb_S400x128_S200x128_200_0

/-- The output block after the body: rows [0, 200) hold the first payload (of the first adjacency block), rows
    [200, 400) the second (of the second adjacency block); the later store listed first. -/
def outBlk (a0 a1 : Vec F S200x10000 .f32) (x : Vec F S10000x128 .f32) (w : Vec F S128x128 .f32) : Vec F S400x128 .f32 :=
  View.canon [⟨rHi, k0_pay2 (View.ld a1 rA) (View.ld x rX) (View.ld w rW)⟩, ⟨rLo, k0_pay1 (View.ld a0 rA) (View.ld x rX) (View.ld w rW)⟩]

/-- The two stores tile the block: rows [0, 200) and [200, 400), all 128 columns. -/
theorem cover (p1 p0 : Vec F S200x128 .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

/-! ## The body's triple -/

set_option maxHeartbeats 1000000 in
/-- The body on whole staging memrefs, the four inputs' at contents `a0 a1 x w` and the output's at anything, runs
    to the continuation with the inputs' as they were and the output's at `outBlk`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBlk a0 a1 x w)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

/-! ## The proof data -/

/-- Per core: the arrays as the region finds them; after the body at point `t` each input's buffer still at its
    block and the output's at `outBlk` of the four input blocks; the invariant is the scoped buffers outside the
    pipeline, untouched; nothing owed. The adjacency array is held at HALF the full share by each of its two
    windows; the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- An input's current staging buffer holds its block at every point, fetched there or not: the body leaves the
    block in place, and where the window is not refetched its block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry -/

/-- The distinct buffers behind the five windows' arrays: the adjacency matrix (two windows), the feature matrix,
    the weight matrix, the result. -/
theorem arrBufs_eq (c : Dev nD) :
    (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)) :=
  bigSep_eq_bigSepL_of_eq [main_arg1, main_arg0, main_arg2, main_v0] (by decide) (by decide) _

/-- The buffers behind the windows' arrays, each whole at its entry contents, make the proof data's arrays at
    entry: the adjacency matrix's points-to splits into its left and right halves, one per adjacency window; the
    feature matrix, the weight matrix and the result go to their windows whole. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  rw [h0, h2, h3, h4]
  iintro ⟨H1, H0, H2, Hv⟩
  ihave H1 := (pointsTo_share (PosShare.mem_left_op_right fullShare)).1 $$ H1
  icases H1 with ⟨Hl, Hr⟩
  isplitl [Hl]; · iexact Hl
  isplitl [Hr]; · iexact Hr
  isplitl [H0]; · iexact H0
  isplitl [H2]; · iexact H2
  iexact Hv

/-! ## The run and the frame -/

set_option backward.isDefEq.respectTransparency.types false in
/-- From any memory with zero counters every weakly fair execution of @main terminates without a fault, every
    window's array ending at what the proof data compute for it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hin := fun _ => .rfl) (hout := fun _ => .rfl)

/-- The three argument arrays end as launched: each is the array of an input window (the feature matrix of
    window 2, the adjacency matrix of window 0, the weight matrix of window 3), and an input's array is never
    written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (((dats m 0 c).arrAt_in 2 rfl _).trans (A_eq m c 2)),
     ((h c).1 0).trans (((dats m 0 c).arrAt_in 0 rfl _).trans (A_eq m c 0)),
     ((h c).1 3).trans (((dats m 0 c).arrAt_in 3 rfl _).trans (A_eq m c 3))⟩) (run_main m ρ)

end Cert.Kernel.Frame

end
-- ==== Proof.KIFrame.lean ====
/-
  The frame of the graph-convolution kernel: it runs to the end, faults nowhere and leaves its three argument
  arrays as they were; and, for the value claim, what its result array holds afterwards.

  The kernel walks 25 grid points. At point t it is handed, in VMEM: rows [400 t, 400 t + 200) and rows
  [400 t + 200, 400 t + 400) of the adjacency matrix as TWO windows on the one array; the whole feature matrix
  and the whole weight matrix (fetched once, at the first point); and a 400 x 128 output block, written back as
  rows [400 t, 400 t + 400) of the result. The body stores (A_lo X) W into the block's first 200 rows and
  (A_hi X) W into its last 200: two stores that tile the block, so the block after the body is a function of the
  four input blocks alone (`outBlk`).

  The two adjacency windows read one buffer; its full share is dealt between them, the left half to the first
  and the right half to the second (`hsplit`). Nothing writes an input array, so each ends at its entry contents.
-/
import proofs.«114285_g52158082843307_cont_9to1_m_725_9_alg».proof.Proof.Gen.KernelIdeal.Launch
import proofs.«114285_g52158082843307_cont_9to1_m_725_9_alg».proof.Proof.Gen.KernelIdeal.Skeleton
import proofs.«114285_g52158082843307_cont_9to1_m_725_9_alg».proof.Proof.Gen.KernelIdeal.Points
import proofs.«114285_g52158082843307_cont_9to1_m_725_9_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers as the region finds them: as launched, @main being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rectangles the body loads and stores through: each input block whole, the output block's two halves. -/
abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rLo : Rect S400x128 := Rect.unit (s := S400x128) ![0, 0] S200x128.size inb_S400x128_S200x128_0_0
abbrev rHi : Rect S400x128 := Rect.unit (s := S400x128) ![200, 0] S200x128.size inb_S400x128_S200x128_200_0

/-- The output block after the body: rows [0, 200) hold the first payload (of the first adjacency block), rows
    [200, 400) the second (of the second adjacency block); the later store listed first. -/
def outBlk (a0 a1 : Vec F S200x10000 .f32) (x : Vec F S10000x128 .f32) (w : Vec F S128x128 .f32) : Vec F S400x128 .f32 :=
  View.canon [⟨rHi, k0_pay2 (View.ld a1 rA) (View.ld x rX) (View.ld w rW)⟩, ⟨rLo, k0_pay1 (View.ld a0 rA) (View.ld x rX) (View.ld w rW)⟩]

/-- The two stores tile the block: rows [0, 200) and [200, 400), all 128 columns. -/
theorem cover (p1 p0 : Vec F S200x128 .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

/-! ## The body's triple -/

set_option maxHeartbeats 1000000 in
/-- The body on whole staging memrefs, the four inputs' at contents `a0 a1 x w` and the output's at anything, runs
    to the continuation with the inputs' as they were and the output's at `outBlk`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole)
    (a0 a1 : Vec F S200x10000 .f32) (x : Vec F S10000x128 .f32) (w : Vec F S128x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ (∃ d, owns (c : Thread nD τ) arg5 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare (outBlk a0 a1 x w)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

/-! ## The proof data -/

/-- Per core: the arrays as the region finds them; after the body at point `t` each input's buffer still at its
    block and the output's at `outBlk` of the four input blocks; the invariant is the scoped buffers outside the
    pipeline, untouched; nothing owed. The adjacency array is held at HALF the full share by each of its two
    windows; the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

/-- An input's current staging buffer holds its block at every point, fetched there or not: the body leaves the
    block in place, and where the window is not refetched its block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry -/

/-- The distinct buffers behind the five windows' arrays: the adjacency matrix (two windows), the feature matrix,
    the weight matrix, the result. -/
theorem arrBufs_eq (c : Dev nD) :
    (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)) :=
  bigSep_eq_bigSepL_of_eq [main_arg1, main_arg0, main_arg2, main_v0] (by decide) (by decide) _

/-- The buffers behind the windows' arrays, each whole at its entry contents, make the proof data's arrays at
    entry: the adjacency matrix's points-to splits into its left and right halves, one per adjacency window; the
    feature matrix, the weight matrix and the result go to their windows whole. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  rw [h0, h2, h3, h4]
  iintro ⟨H1, H0, H2, Hv⟩
  ihave H1 := (pointsTo_share (PosShare.mem_left_op_right fullShare)).1 $$ H1
  icases H1 with ⟨Hl, Hr⟩
  isplitl [Hl]; · iexact Hl
  isplitl [Hr]; · iexact Hr
  isplitl [H0]; · iexact H0
  isplitl [H2]; · iexact H2
  iexact Hv

/-! ## The run and the frame -/

set_option backward.isDefEq.respectTransparency.types false in
/-- From any memory with zero counters every weakly fair execution of @main terminates without a fault, every
    window's array ending at what the proof data compute for it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hin := fun _ => .rfl) (hout := fun _ => .rfl)

/-- The three argument arrays end as launched: each is the array of an input window (the feature matrix of
    window 2, the adjacency matrix of window 0, the weight matrix of window 3), and an input's array is never
    written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (((dats m 0 c).arrAt_in 2 rfl _).trans (A_eq m c 2)),
     ((h c).1 0).trans (((dats m 0 c).arrAt_in 0 rfl _).trans (A_eq m c 0)),
     ((h c).1 3).trans (((dats m 0 c).arrAt_in 3 rfl _).trans (A_eq m c 3))⟩) (run_main m ρ)

end Cert.KernelIdeal.Frame

end
-- ==== Proof.KIPayload.lean ====
/-
  The kernel body's two payloads at an index, over the extended reals.

  Each payload is a product of three matrices grouped to the left: a 200 x 10000 block of the adjacency matrix
  times the 10000 x 128 feature matrix, into a zero accumulator, and the 200 x 128 result times the 128 x 128
  weight matrix, into a zero accumulator. At the ideal instance a matrix product into zero is the plain sum over
  the contracted axis; the contracted index type has one axis, re-indexed here by Fin 10000 and Fin 128.
-/
import proofs.«114285_g52158082843307_cont_9to1_m_725_9_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first product: a block of adjacency rows times the feature matrix -/

theorem lhsA_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsA_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhsA_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhsA_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Row r of the block times column k of the feature matrix: the sum over the 10000 shared indices. -/
theorem mulA_apply (v0 : FVec Ideal S200x10000 .f32) (v1 : FVec Ideal S10000x128 .f32) (r : Fin 200) (k : Fin 128) :
    matmul (F := Ideal) dot_S200x10000_S10000x128_S200x128_1_0_0_1_n_n none v0 v1 (constant (F := Ideal) S200x128 .f32 0x00000000#32) (ix2 r k)
      = ∑ j : Fin 10000, v0 (ix2 r j) * v1 (ix2 j k) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun j _ => ?_
  have hk := ValueIdx.contrEquiv1_symm_val dot_S200x10000_S10000x128_S200x128_1_0_0_1_n_n 10000 rfl rfl j
  have el : dot_S200x10000_S10000x128_S200x128_1_0_0_1_n_n.lhsIdx (ix2 r k) ((ValueIdx.contrEquiv1 dot_S200x10000_S10000x128_S200x128_1_0_0_1_n_n 10000 rfl rfl).symm j) = ix2 r j := funext fun a => Fin.ext (by
    match a with
    | ⟨0, _⟩ => exact lhsA_0 _ _
    | ⟨1, _⟩ => exact (lhsA_1 _ _).trans hk)
  have er : dot_S200x10000_S10000x128_S200x128_1_0_0_1_n_n.rhsIdx (ix2 r k) ((ValueIdx.contrEquiv1 dot_S200x10000_S10000x128_S200x128_1_0_0_1_n_n 10000 rfl rfl).symm j) = ix2 j k := funext fun a => Fin.ext (by
    match a with
    | ⟨0, _⟩ => exact (rhsA_0 _ _).trans hk
    | ⟨1, _⟩ => exact rhsA_1 _ _)
  rw [el, er]

/-! ## The second product: the 200 x 128 result times the weight matrix -/

theorem lhsW_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhsW_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhsW_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhsW_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- Row r of a 200 x 128 matrix times column l of the weight matrix: the sum over the 128 shared indices. -/
theorem mulW_apply (y : FVec Ideal S200x128 .f32) (v3 : FVec Ideal S128x128 .f32) (r : Fin 200) (l : Fin 128) :
    matmul (F := Ideal) dot_S200x128_S128x128_S200x128_1_0_0_1_n_n none y v3 (constant (F := Ideal) S200x128 .f32 0x00000000#32) (ix2 r l)
      = ∑ k : Fin 128, y (ix2 r k) * v3 (ix2 k l) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 r l) ((ValueIdx.contrEquiv1 dot_S200x128_S128x128_S200x128_1_0_0_1_n_n 128 rfl rfl).symm k) = ix2 r k := funext fun a => Fin.ext (by
    match a with
    | ⟨0, _⟩ => exact lhsW_0 _ _
    | ⟨1, _⟩ => exact (lhsW_1 _ _).trans hk)
  have er : dot_S200x128_S128x128_S200x128_1_0_0_1_n_n.rhsIdx (ix2 r l) ((ValueIdx.contrEquiv1 dot_S200x128_S128x128_S200x128_1_0_0_1_n_n 128 rfl rfl).symm k) = ix2 k l := funext fun a => Fin.ext (by
    match a with
    | ⟨0, _⟩ => exact (rhsW_0 _ _).trans hk
    | ⟨1, _⟩ => exact rhsW_1 _ _)
  rw [el, er]

/-! ## The payloads -/

/-- The first payload at row r, column l: (block times features) times weights, grouped to the left. -/
theorem pay1_apply (v0 : FVec Ideal S200x10000 .f32) (v1 : FVec Ideal S10000x128 .f32) (v3 : FVec Ideal S128x128 .f32) (r : Fin 200) (l : Fin 128) :
    k0_pay1 (F := Ideal) v0 v1 v3 (ix2 r l) = ∑ k : Fin 128, (∑ j : Fin 10000, v0 (ix2 r j) * v1 (ix2 j k)) * v3 (ix2 k l) := by
  unfold k0_pay1
  refine (mulW_apply _ v3 r l).trans ?_
  exact Finset.sum_congr rfl fun k _ => congrArg (· * v3 (ix2 k l)) (mulA_apply v0 v1 r k)

/-- The second payload: the same function of the second adjacency block. -/
theorem pay2_apply (v6 : FVec Ideal S200x10000 .f32) (v7 : FVec Ideal S10000x128 .f32) (v9 : FVec Ideal S128x128 .f32) (r : Fin 200) (l : Fin 128) :
    k0_pay2 (F := Ideal) v6 v7 v9 (ix2 r l) = ∑ k : Fin 128, (∑ j : Fin 10000, v6 (ix2 r j) * v7 (ix2 j k)) * v9 (ix2 k l) := by
  unfold k0_pay2
  refine (mulW_apply _ v9 r l).trans ?_
  exact Finset.sum_congr rfl fun k _ => congrArg (· * v9 (ix2 k l)) (mulA_apply v6 v7 r k)

end Cert.KernelIdeal.Payload

end
-- ==== Proof.SumAssoc.lean ====
/-
  The associativity of a product of three matrices, entry by entry, over the extended reals.
  Multiplication does not distribute over addition at the infinities, so the statement asks that
  every entry of the three families is a real number; the identity is then the one in ℝ.
-/
import Mathlib.Data.EReal.Basic
import Mathlib.Algebra.BigOperators.Ring.Finset
import Mathlib.Algebra.BigOperators.Fin

namespace Cert.SumAssoc

open Finset

/-- The embedding of ℝ in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a · x) · w = a · (x · w), entry by entry, when every entry is real. -/
theorem sum_mul_assoc {J K : Type} [Fintype J] [Fintype K] (a : J → EReal) (x : J → K → EReal) (w : K → EReal)
    (ha : ∀ j, ∃ r : ℝ, a j = (r : EReal)) (hx : ∀ j k, ∃ r : ℝ, x j k = (r : EReal))
    (hw : ∀ k, ∃ r : ℝ, w k = (r : EReal)) :
    ∑ k, (∑ j, a j * x j k) * w k = ∑ j, a j * ∑ k, x j k * w k := by
  choose a' ha' using ha
  choose x' hx' using hx
  choose w' hw' using hw
  have e1 : ∀ k, (∑ j, a j * x j k) * w k = ((∑ j, a' j * x' j k) * w' k : ℝ) := by
    intro k
    rw [EReal.coe_mul, coe_sum, hw' k]
    congr 1
    refine Finset.sum_congr rfl fun j _ => ?_
    rw [ha' j, hx' j k, EReal.coe_mul]
  have e2 : ∀ j, a j * ∑ k, x j k * w k = ((a' j * ∑ k, x' j k * w' k : ℝ) : EReal) := by
    intro j
    rw [EReal.coe_mul, coe_sum, ha' j]
    congr 1
    refine Finset.sum_congr rfl fun k _ => ?_
    rw [hx' j k, hw' k, EReal.coe_mul]
  rw [Finset.sum_congr rfl fun k _ => e1 k, Finset.sum_congr rfl fun j _ => e2 j, ← coe_sum, ← coe_sum]
  congr 1
  simp only [Finset.sum_mul, Finset.mul_sum]
  rw [Finset.sum_comm]
  refine Finset.sum_congr rfl fun j _ => Finset.sum_congr rfl fun k _ => ?_
  rw [mul_assoc]

end Cert.SumAssoc
-- ==== Proof.Spec.lean ====
/-
  The graph-convolution layer as one function of its three arguments, in the two groupings the two programs use.

  With A the 10000 x 10000 adjacency matrix, X the 10000 x 128 feature matrix and W the 128 x 128 weight matrix,
  the kernel computes (A X) W and the reference A (X W). Over the extended reals the two agree when every entry is a
  real number (distributivity, which moving W across the sum over j needs, fails at the infinities).
-/
import Idealize.ShloMosaic.PureOps.Ideal
import Idealize.ShloMosaic.Lib.ValueIdx
import proofs.«114285_g52158082843307_cont_9to1_m_725_9_alg».proof.Proof.SumAssoc

noncomputable section

namespace Cert.Spec

open Idealize.ShloMosaic Idealize.ShloMosaic.ValueIdx

abbrev SX : Shape := ⟨2, ![10000, 128]⟩
abbrev SA : Shape := ⟨2, ![10000, 10000]⟩
abbrev SW : Shape := ⟨2, ![128, 128]⟩

/-- (A X) W at row i 0 and column i 1: the sum over k of (row i 0 of A times column k of X) times W k (i 1). -/
def prodL (x : SX.Idx → EReal) (a : SA.Idx → EReal) (w : SW.Idx → EReal) : SX.Idx → EReal :=
  fun i => ∑ k : Fin 128, (∑ j : Fin 10000, a (ix2 (n0 := 10000) (n1 := 10000) ⟨(i 0).val, (i 0).isLt⟩ j) * x (ix2 j k))
    * w (ix2 (n0 := 128) (n1 := 128) k ⟨(i 1).val, (i 1).isLt⟩)

/-- A (X W) at row i 0 and column i 1: the sum over j of A (i 0) j times (row j of X times column i 1 of W). -/
def prodR (x : SX.Idx → EReal) (a : SA.Idx → EReal) (w : SW.Idx → EReal) : SX.Idx → EReal :=
  fun i => ∑ j : Fin 10000, a (ix2 (n0 := 10000) (n1 := 10000) ⟨(i 0).val, (i 0).isLt⟩ j)
    * ∑ k : Fin 128, x (ix2 j k) * w (ix2 (n0 := 128) (n1 := 128) k ⟨(i 1).val, (i 1).isLt⟩)

/-- The two groupings agree when all entries are real. -/
theorem prodL_eq_prodR (x : SX.Idx → EReal) (a : SA.Idx → EReal) (w : SW.Idx → EReal)
    (hx : ∀ i, ∃ r : ℝ, x i = (r : EReal)) (ha : ∀ i, ∃ r : ℝ, a i = (r : EReal)) (hw : ∀ i, ∃ r : ℝ, w i = (r : EReal)) :
    prodL x a w = prodR x a w :=
  funext fun i => Cert.SumAssoc.sum_mul_assoc
    (fun j : Fin 10000 => a (ix2 (n0 := 10000) (n1 := 10000) ⟨(i 0).val, (i 0).isLt⟩ j))
    (fun (j : Fin 10000) (k : Fin 128) => x (ix2 j k))
    (fun k : Fin 128 => w (ix2 (n0 := 128) (n1 := 128) k ⟨(i 1).val, (i 1).isLt⟩))
    (fun j => ha _) (fun j k => hx _) (fun k => hw _)

/-- A 200-row tile of (A X) W: if `a` holds rows [R, R + 200) of A, and `x`, `w` are X and W, then row r, column l
    of (a x) w is entry (R + r, l) of (A X) W. -/
theorem prodL_tile (X : SX.Idx → EReal) (A : SA.Idx → EReal) (Wt : SW.Idx → EReal)
    (a : (⟨2, ![200, 10000]⟩ : Shape).Idx → EReal) (x : SX.Idx → EReal) (w : SW.Idx → EReal)
    (R : Nat) (hR : R + 200 ≤ 10000)
    (ha : ∀ (r : Fin 200) (j : Fin 10000), a (ix2 r j) = A (ix2 (n0 := 10000) (n1 := 10000) ⟨R + r.val, by have := r.isLt; omega⟩ j))
    (hx : ∀ (j : Fin 10000) (k : Fin 128), x (ix2 j k) = X (ix2 j k))
    (hw : ∀ (k l : Fin 128), w (ix2 k l) = Wt (ix2 k l))
    (r : Fin 200) (l : Fin 128) (i : SX.Idx) (hi0 : (i 0).val = R + r.val) (hi1 : (i 1).val = l.val) :
    (∑ k : Fin 128, (∑ j : Fin 10000, a (ix2 r j) * x (ix2 j k)) * w (ix2 k l)) = prodL X A Wt i := by
  unfold prodL
  have e0 : (⟨R + r.val, by have := r.isLt; omega⟩ : Fin 10000) = ⟨(i 0).val, (i 0).isLt⟩ := Fin.ext hi0.symm
  have e1 : l = (⟨(i 1).val, (i 1).isLt⟩ : Fin 128) := Fin.ext hi1.symm
  refine Finset.sum_congr rfl fun k _ => ?_
  rw [hw k l, ← e1]
  refine congrArg (· * Wt (ix2 k l)) ?_
  refine Finset.sum_congr rfl fun j _ => ?_
  rw [ha r j, hx j k, e0]

end Cert.Spec

end
-- ==== Proof.KIValue.lean ====
/-
  What the kernel's result array holds after the run, at the ideal instance: (A X) W, entry by entry.

  Point t of the 25 writes back rows [400 t, 400 t + 400) of the result. Its first adjacency window holds rows
  [400 t, 400 t + 200) of A (block index 2 t of size 200), its second rows [400 t + 200, 400 t + 400) (block index
  2 t + 1); the feature and weight windows hold X and W whole. So each of the body's two stores is a 200-row tile
  of (A X) W, the output block is the 400-row block of (A X) W that point t covers, and the 25 blocks tile the
  10000 rows.
-/
import proofs.«114285_g52158082843307_cont_9to1_m_725_9_alg».proof.Proof.KIFrame
import proofs.«114285_g52158082843307_cont_9to1_m_725_9_alg».proof.Proof.KIPayload
import proofs.«114285_g52158082843307_cont_9to1_m_725_9_alg».proof.Proof.Spec
import Idealize.ShloMosaic.Lib.Pipeline.Value

set_option maxRecDepth 16384

noncomputable section

namespace Cert.KernelIdeal.ValueLeg

open Cert.KernelIdeal Cert.KernelIdeal.Gen Cert.KernelIdeal.Frame Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: at point t the adjacency windows sit at row blocks 2 t and 2 t + 1, the feature
    and weight windows at block 0, the output at row block t; every column block is 0. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 25 := lt_of_lt_of_eq t.isLt N_0

/-! ## The input blocks, read at an index -/

/-- The first adjacency window's block at point t is rows [400 t, 400 t + 200) of A. -/
theorem blk0_apply (c : Dev nD) (t : Fin cfg0.N) (r : Fin 200) (j : Fin 10000) :
    iblk m c 0 t (ix2 r j) = V m c main_arg1 (ix2 (n0 := 10000) (n1 := 10000) ⟨400 * t.val + r.val, by have := t_lt t; have := r.isLt; omega⟩ j) := by
  obtain ⟨e00, e01, -⟩ := idx_facts t
  show V m c main_arg1 (((cfg0.win 0).blk t).view.emb (ix2 r j)) = V m c main_arg1 _
  refine congrArg _ (funext fun a => Fin.ext ?_)
  match a with
  | ⟨0, _⟩ => show win0_0.index t (0 : Fin 2) * 200 + 1 * r.val = 400 * t.val + r.val; omega
  | ⟨1, _⟩ => show win0_0.index t (1 : Fin 2) * 10000 + 1 * j.val = j.val; omega

/-- The second adjacency window's block at point t is rows [400 t + 200, 400 t + 400) of A. -/
theorem blk1_apply (c : Dev nD) (t : Fin cfg0.N) (r : Fin 200) (j : Fin 10000) :
    iblk m c 1 t (ix2 r j) = V m c main_arg1 (ix2 (n0 := 10000) (n1 := 10000) ⟨(400 * t.val + 200) + r.val, by have := t_lt t; have := r.isLt; omega⟩ j) := by
  obtain ⟨-, -, e10, e11, -⟩ := idx_facts t
  show V m c main_arg1 (((cfg0.win 1).blk t).view.emb (ix2 r j)) = V m c main_arg1 _
  refine congrArg _ (funext fun a => Fin.ext ?_)
  match a with
  | ⟨0, _⟩ => show win0_1.index t (0 : Fin 2) * 200 + 1 * r.val = (400 * t.val + 200) + r.val; omega
  | ⟨1, _⟩ => show win0_1.index t (1 : Fin 2) * 10000 + 1 * j.val = j.val; omega

/-- The feature window's block at every point is X whole. -/
theorem blk2_apply (c : Dev nD) (t : Fin cfg0.N) (j : Fin 10000) (k : Fin 128) :
    iblk m c 2 t (ix2 j k) = V m c main_arg0 (ix2 j k) := by
  obtain ⟨-, -, -, -, e20, e21, -⟩ := idx_facts t
  show V m c main_arg0 (((cfg0.win 2).blk t).view.emb (ix2 j k)) = V m c main_arg0 _
  refine congrArg _ (funext fun a => Fin.ext ?_)
  match a with
  | ⟨0, _⟩ => show win0_2.index t (0 : Fin 2) * 10000 + 1 * j.val = j.val; omega
  | ⟨1, _⟩ => show win0_2.index t (1 : Fin 2) * 128 + 1 * k.val = k.val; omega

/-- The weight window's block at every point is W whole. -/
theorem blk3_apply (c : Dev nD) (t : Fin cfg0.N) (k l : Fin 128) :
    iblk m c 3 t (ix2 k l) = V m c main_arg2 (ix2 k l) := by
  obtain ⟨-, -, -, -, -, -, e30, e31, -⟩ := idx_facts t
  show V m c main_arg2 (((cfg0.win 3).blk t).view.emb (ix2 k l)) = V m c main_arg2 _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * l.val = l.val; omega

/-! ## What point t writes back -/

/-- (A X) W of the arrays as the region finds them. -/
abbrev G (c : Dev nD) : S10000x128.Idx → EReal :=
  Cert.Spec.prodL (V m c main_arg0) (V m c main_arg1) (V m c main_arg2)

/-- The first store's payload is rows [400 t, 400 t + 200) of (A X) W, -/
theorem lo_tile (c : Dev nD) (t : Fin cfg0.N) (r : Fin 200) (l : Fin 128) (i : S10000x128.Idx)
    (hi0 : (i 0).val = 400 * t.val + r.val) (hi1 : (i 1).val = l.val) :
    k0_pay1 (F := Ideal) (iblk m c 0 t) (iblk m c 2 t) (iblk m c 3 t) (ix2 r l) = G m c i :=
  (pay1_apply (iblk m c 0 t) (iblk m c 2 t) (iblk m c 3 t) r l).trans
    (Cert.Spec.prodL_tile (V m c main_arg0) (V m c main_arg1) (V m c main_arg2) (iblk m c 0 t) (iblk m c 2 t) (iblk m c 3 t)
      (400 * t.val) (by have := t_lt t; omega) (fun r j => blk0_apply m c t r j) (fun j k => blk2_apply m c t j k)
      (fun k l => blk3_apply m c t k l) r l i hi0 hi1)

/-- and the second store's rows [400 t + 200, 400 t + 400). -/
theorem hi_tile (c : Dev nD) (t : Fin cfg0.N) (r : Fin 200) (l : Fin 128) (i : S10000x128.Idx)
    (hi0 : (i 0).val = (400 * t.val + 200) + r.val) (hi1 : (i 1).val = l.val) :
    k0_pay2 (F := Ideal) (iblk m c 1 t) (iblk m c 2 t) (iblk m c 3 t) (ix2 r l) = G m c i :=
  (pay2_apply (iblk m c 1 t) (iblk m c 2 t) (iblk m c 3 t) r l).trans
    (Cert.Spec.prodL_tile (V m c main_arg0) (V m c main_arg1) (V m c main_arg2) (iblk m c 1 t) (iblk m c 2 t) (iblk m c 3 t)
      (400 * t.val + 200) (by have := t_lt t; omega) (fun r j => blk1_apply m c t r j) (fun j k => blk2_apply m c t j k)
      (fun k l => blk3_apply m c t k l) r l i hi0 hi1)

/-- What point t writes back is the block of (A X) W its output window covers. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after_4]
  unfold outBlk
  simp only [View.ld_unit_zero (S := S200x10000) hz, View.ld_unit_zero (S := S10000x128) hz, View.ld_unit_zero (S := S128x128) hz]
  obtain ⟨-, -, -, -, -, -, -, -, e40, e41⟩ := idx_facts t
  funext y
  refine View.canon_apply_of_pieces (Val := Elt Ideal) (S := S400x128) (e := .f32) (fun y => G m c (((cfg0.win 4).blk t).view.emb y)) _ ?_ y (cover _ _ y)
  intro p hp x
  rcases List.mem_cons.mp hp with rfl | hp
  · obtain ⟨r, l, rfl⟩ : ∃ (r : Fin 200) (l : Fin 128), x = ix2 r l := ⟨x 0, x 1, eq_ix2 x⟩
    refine hi_tile m c t r l _ ?_ ?_
    · show win0_4.index t (0 : Fin 2) * 400 + 1 * (200 + 1 * r.val) = (400 * t.val + 200) + r.val; omega
    · show win0_4.index t (1 : Fin 2) * 128 + 1 * (0 + 1 * l.val) = l.val; omega
  · rcases List.mem_singleton.mp hp with rfl
    obtain ⟨r, l, rfl⟩ : ∃ (r : Fin 200) (l : Fin 128), x = ix2 r l := ⟨x 0, x 1, eq_ix2 x⟩
    refine lo_tile m c t r l _ ?_ ?_
    · show win0_4.index t (0 : Fin 2) * 400 + 1 * (0 + 1 * r.val) = 400 * t.val + r.val; omega
    · show win0_4.index t (1 : Fin 2) * 128 + 1 * (0 + 1 * l.val) = l.val; omega

/-! ## The blocks tile the array -/

/-- An index of the result is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row i 0 of the result lies in the block of point (i 0) / 400, which is written back. -/
theorem cover_arr (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : (i 0).val / 400 < cfg0.N := by rw [show cfg0.N = 25 from N_0]; omega
  obtain ⟨-, -, -, -, -, -, -, -, e40, e41⟩ := idx_facts ⟨(i 0).val / 400, hN⟩
  have e40' : win0_4.index ⟨(i 0).val / 400, hN⟩ (0 : Fin 2) = (i 0).val / 400 := e40
  refine ⟨⟨(i 0).val / 400, hN⟩, flush0_4 _, ?_⟩
  rw [mem_blk]
  intro a
  match a with
  | ⟨0, _⟩ =>
    show win0_4.index ⟨(i 0).val / 400, hN⟩ (0 : Fin 2) * 400 ≤ (i 0).val ∧ (i 0).val < win0_4.index ⟨(i 0).val / 400, hN⟩ (0 : Fin 2) * 400 + 400
    omega
  | ⟨1, _⟩ =>
    show win0_4.index ⟨(i 0).val / 400, hN⟩ (1 : Fin 2) * 128 ≤ (i 1).val ∧ (i 1).val < win0_4.index ⟨(i 0).val / 400, hN⟩ (1 : Fin 2) * 128 + 128
    omega

/-! ## The result after the run -/

/-- After the 25 write-backs the result array holds (A X) W. -/
theorem final (c : Dev nD) : (dats m 0 c).arrAt 4 cfg0.N = G m c :=
  (dats m 0 c).arrAt_eq_of_cover 4 (G m c) (fun t _ => flushed_eq m c t) cover_arr

/-- The run with the result named: (A X) W of the launch contents of the arguments, which end unchanged. -/
theorem run : θ_run defs (onTc (τ := τ) (main (F := Ideal))) ⟨m, fun _ => 0, ρ⟩ fun r => ∀ c : Dev nD,
      r.2.mem ((c.tc : Thread nD τ).loc main_v0)
        = Cert.Spec.prodL (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c),
     ((h c).1 2).trans (((dats m 0 c).arrAt_in 2 rfl _).trans (A_eq m c 2)),
     ((h c).1 0).trans (((dats m 0 c).arrAt_in 0 rfl _).trans (A_eq m c 0)),
     ((h c).1 3).trans (((dats m 0 c).arrAt_in 3 rfl _).trans (A_eq m c 3))⟩) (run_main m ρ)

end Cert.KernelIdeal.ValueLeg

end
-- ==== Proof.RefValue.lean ====
/-
  The reference's result, at the ideal instance, is A (X W) entry by entry: its first dot_general is X W (a sum over
  the 128 shared indices), its second A times that (a sum over the 10000 shared indices).
-/
import proofs.«114285_g52158082843307_cont_9to1_m_725_9_alg».proof.Proof.Gen.ReferenceIdeal.Read
import proofs.«114285_g52158082843307_cont_9to1_m_725_9_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage is A (X W). -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.Spec.prodR x0 x1 x2 := by
  funext i
  rw [val_main_v1_apply]
  unfold Cert.Spec.prodR
  refine Finset.sum_congr rfl fun j _ => ?_
  rw [val_main_v0_apply]
  have e1 : lidx_main_v1 i j = ix2 (n0 := 10000) (n1 := 10000) ⟨(i 0).val, (i 0).isLt⟩ j :=
    funext fun a => Fin.ext (by match a with | ⟨0, _⟩ => rfl | ⟨1, _⟩ => rfl)
  have e2 : ∀ k : Fin 128, lidx_main_v0 (ridx_main_v1 i j) k = ix2 j k := fun k =>
    funext fun a => Fin.ext (by match a with | ⟨0, _⟩ => rfl | ⟨1, _⟩ => rfl)
  have e3 : ∀ k : Fin 128, ridx_main_v0 (ridx_main_v1 i j) k = ix2 (n0 := 128) (n1 := 128) k ⟨(i 1).val, (i 1).isLt⟩ := fun k =>
    funext fun a => Fin.ext (by match a with | ⟨0, _⟩ => rfl | ⟨1, _⟩ => rfl)
  rw [e1]
  exact congrArg _ (Finset.sum_congr rfl fun k _ => by rw [e2, e3])

end Cert.ReferenceIdeal.RefValue

end
-- ==== Proof.Finite.lean ====
/-
  From the precondition "every entry of the three inputs has absolute value below +∞" to
  "every entry of the three inputs is a real number", at the extended-real reading of floats.
-/
import proofs.«114285_g52158082843307_cont_9to1_m_725_9_alg».proof.Pre_finite_inputs
import proofs.«114285_g52158082843307_cont_9to1_m_725_9_alg».proof.Proof.Gen.Pre_finite_inputs
import Idealize.ShloMosaic.PureOps.Ideal
import Idealize.ShloMosaic.Lib.ReduceAll
import Idealize.ShloMosaic.Lib.ValueIdx

namespace Cert.Finite

open Idealize.ShloMosaic

/-- The single-precision word 0x7F800000 denotes +∞. -/
theorem inf_word : Ideal.ofBits .f32 0x7F800000#32 = (⊤ : EReal) := by
  simp [Ideal.ofBits, Ideal.ieee]

/-- An extended real whose absolute value max x (-x) is strictly below +∞ is a real number. -/
theorem real_of_abs_lt_top (x : EReal)
    (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

theorem real_of_pre (x0 : FVec Ideal Cert.Pre_finite_inputs.S10000x128 .f32)
    (x1 : FVec Ideal Cert.Pre_finite_inputs.S10000x10000 .f32)
    (x2 : FVec Ideal Cert.Pre_finite_inputs.S128x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧
      (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · have e := Host.reduce_andi_all _ _ _ _ _ h0' i
    exact real_of_abs_lt_top _ e
  · have e := Host.reduce_andi_all _ _ _ _ _ h1 i
    exact real_of_abs_lt_top _ e
  · have e := Host.reduce_andi_all _ _ _ _ _ h2 i
    exact real_of_abs_lt_top _ e

end Cert.Finite
-- ==== Proof.lean ====
/-
  A graph-convolution layer: the kernel computes (A X) W, streaming the adjacency matrix A in row blocks through
  two windows on the one array, and the reference computes A (X W) by two host matrix products.

  The three frames. Each kernel program's frame is its run through the frame run for windows that share an array
  (the adjacency matrix's full share dealt in halves between its two windows); the reference's frame is its run
  with the result dropped.
  The idealization rewrote nothing, so there is nothing to preserve.
  The value claim. At the ideal instance the kernel's result array ends holding (A X) W entry by entry (each of the
  25 grid points writes back a 400-row block of it, and the blocks tile the rows), the reference's A (X W); the two
  are one function of the arguments when every entry is a real number, which the precondition says.
-/
import proofs.«114285_g52158082843307_cont_9to1_m_725_9_alg».proof.Defs
import proofs.«114285_g52158082843307_cont_9to1_m_725_9_alg».proof.Proof.Gen.Kernel
import proofs.«114285_g52158082843307_cont_9to1_m_725_9_alg».proof.Proof.Gen.KernelIdeal
import proofs.«114285_g52158082843307_cont_9to1_m_725_9_alg».proof.Proof.Gen.ReferenceIdeal
import proofs.«114285_g52158082843307_cont_9to1_m_725_9_alg».proof.Proof.Gen.Pre_finite_inputs
import proofs.«114285_g52158082843307_cont_9to1_m_725_9_alg».proof.Proof.KFrame
import proofs.«114285_g52158082843307_cont_9to1_m_725_9_alg».proof.Proof.KIFrame
import proofs.«114285_g52158082843307_cont_9to1_m_725_9_alg».proof.Proof.KIValue
import proofs.«114285_g52158082843307_cont_9to1_m_725_9_alg».proof.Proof.RefValue
import proofs.«114285_g52158082843307_cont_9to1_m_725_9_alg».proof.Proof.Finite
import proofs.«114285_g52158082843307_cont_9to1_m_725_9_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is (A X) W of its arguments, the reference's A (X W) of arguments that
    agree with them; all entries being real, the two are equal. -/
theorem algebraic : Cert.algebraic_KernelIdeal_ReferenceIdeal := by
  intro m ρ m' ρ' hpre hagree
  refine ⟨fun c => Cert.Spec.prodL (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ValueLeg.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq, Cert.ReferenceIdeal.RefValue.ref_eq]
  obtain ⟨h0, h1, h2⟩ := Cert.Finite.real_of_pre _ _ _ (hpre c)
  exact (Cert.Spec.prodL_eq_prodR _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
